-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512x1x1 : Shape := ⟨4, ![4096, 512, 1, 1]⟩
abbrev S_ : Shape := ⟨0, ![]⟩

class Facts : Prop where
  bcast_S_S4096x512x1x1 : S_.BroadcastsInDim S4096x512x1x1 (![] : Fin 0 → Fin S4096x512x1x1.rank)
  reducesTo_S4096x512x1x1_S_d0_1_2_3 : S4096x512x1x1.ReducesTo [0, 1, 2, 3] S_
  h_S_ : 0 < S_.numel

variable [Facts]

def fn {F : FTy → Type} [FloatOps F] (main_arg0 : FVec F S4096x512x1x1 .f32) (main_arg1 : FVec F S4096x512x1x1 .f32) : IVec S_ 1 :=
  let main_v0 : FVec F S4096x512x1x1 .f32 := Host.absf main_arg0
  let main_cst : FVec F S_ .f32 := constant S_ .f32 0x7F800000#32
  let main_v1 : FVec F S4096x512x1x1 .f32 := broadcastInDim S4096x512x1x1 ![] bcast_S_S4096x512x1x1 main_cst
  let main_v2 : IVec S4096x512x1x1 1 := cmpf .olt main_v0 main_v1
  let main_c : IVec S_ 1 := constantI S_ 1 1#1
  let main_v3 : IVec S_ 1 := (fun x v => Host.reduce IntOp.andi x v reducesTo_S4096x512x1x1_S_d0_1_2_3 h_S_) main_v2 main_c
  let main_v4 : FVec F S4096x512x1x1 .f32 := Host.absf main_arg1
  let main_cst_0 : FVec F S_ .f32 := constant S_ .f32 0x7F800000#32
  let main_v5 : FVec F S4096x512x1x1 .f32 := broadcastInDim S4096x512x1x1 ![] bcast_S_S4096x512x1x1 main_cst_0
  let main_v6 : IVec S4096x512x1x1 1 := cmpf .olt main_v4 main_v5
  let main_c_1 : IVec S_ 1 := constantI S_ 1 1#1
  let main_v7 : IVec S_ 1 := (fun x v => Host.reduce IntOp.andi x v reducesTo_S4096x512x1x1_S_d0_1_2_3 h_S_) main_v6 main_c_1
  let main_v8 : IVec S_ 1 := andi main_v3 main_v7
  main_v8
-- ==== Kernel.lean ====
abbrev S4096x512x1x1 : Shape := ⟨4, ![4096, 512, 1, 1]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S2x8x128 : Shape := ⟨3, ![2, 8, 128]⟩
abbrev S2048x512 : Shape := ⟨2, ![2048, 512]⟩
abbrev S1024x512 : Shape := ⟨2, ![1024, 512]⟩
abbrev S1x8x128 : Shape := ⟨3, ![1, 8, 128]⟩
abbrev S1x1 : Shape := ⟨2, ![1, 1]⟩
abbrev S512x1024 : Shape := ⟨2, ![512, 1024]⟩
abbrev S2048x1024 : Shape := ⟨2, ![2048, 1024]⟩
abbrev S1024 : Shape := ⟨1, ![1024]⟩
abbrev S1x1024 : Shape := ⟨2, ![1, 1024]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 37
  | .vmem => 7
  | .smem => 0
  | _ => 0

abbrev bufTy : (tb : Table) → Fin (tcTables nBuf tb) → BufTy
  | .hbm, ⟨0, _⟩ => ⟨S4096x512x1x1, .f32⟩
  | .hbm, ⟨1, _⟩ => ⟨S4096x512x1x1, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S4096x512, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S_, .f32⟩
  | .hbm, ⟨27, _⟩ => ⟨S4096x512, .bf16⟩
  | .hbm, ⟨28, _⟩ => ⟨S4096x512, .bf16⟩
  | .hbm, ⟨29, _⟩ => ⟨S2x8x128, .f32⟩
  | .hbm, ⟨30, _⟩ => ⟨S2x1x1, .f32⟩
  | .hbm, ⟨31, _⟩ => ⟨S2, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S4096x512x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4096x512x1x1_S4096x512 : S4096x512x1x1.ShapeCasts S4096x512
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S4096x512_S_d0_1 : S4096x512.ReducesTo [0, 1] S_
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  reduces_S2048x1024_S1024 : S2048x1024.Reduces [0] S1024
  shapeCasts_S1024_S1x1024 : S1024.ShapeCasts S1x1024
  reduces_S1x1024_S1 : S1x1024.Reduces [1] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .bf16 = 32 ∨ (Rect.block (s := S4096x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v20) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512x1x1 : Shape := ⟨4, ![4096, 512, 1, 1]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x512x1x1, .f32⟩
  | .hbm, ⟨1, _⟩ => ⟨S4096x512x1x1, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x4096, .f32⟩
  | .hbm, ⟨25, _⟩ => ⟨S4096x4096, .i32⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x512x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  shapeCasts_S4096x512x1x1_S4096x512 : S4096x512x1x1.ShapeCasts S4096x512
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S_S4096x4096 : S_.BroadcastsInDim S4096x4096 (![] : Fin 0 → Fin S4096x4096.rank)
  reducesTo_S4096x4096_S_d0_1 : S4096x4096.ReducesTo [0, 1] S_
  dot_S4096x512_S4096x512_S4096x4096_1_1_0_0_n_n_wf : DotDims.WF S4096x512 S4096x512 S4096x4096 [1] [1] [0] [0] [] []

variable [Facts₀]

def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.TilePieces.lean ====
/-
  What one run of the kernel body leaves behind, read off the pieces its stores were found to write.

  The body keeps a one-cell running total in a scratch buffer. At the first tile of a row band it stores zero there,
  reads it back and adds the tile's sum; at a later tile it adds the tile's sum to what the tile before left. In both
  cases the output block is then filled with the new running total. Each statement below says so for the generated
  piece lists: the last store through the whole cell (or the whole block) decides its contents, and a load through the
  same rectangle reads the payload of the store before it.
-/
import proofs.«173129_j90417651516231_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile of a row band: the running total `xs` found in the scratch cell is replaced by `xs` plus the tile's sum. -/
theorem sout_B (c : Dev nD) (i : grid0.Coords) (a2 : Memref sig .tc .vmem S2048x512 .bf16) (h2 : a2.IsWhole)
    (a3 : Memref sig .tc .vmem S1024x512 .bf16) (h3 : a3.IsWhole) (a4 : Memref sig .tc .vmem S1x8x128 .f32) (h4 : a4.IsWhole)
    (a5 : Memref sig .tc .vmem S1x1 .f32) (h5 : a5.IsWhole) (hc : ¬cond0_0 i)
    (x0 : Vec F S2048x512 .bf16) (x1 : Vec F S1024x512 .bf16) (xs : Vec F S1x1 .f32) :
    sout0_B_0 c i a2 h2 a3 h3 a4 h4 a5 h5 hc x0 x1 xs = k0_pay2 x0 x1 xs := by
  unfold sout0_B_0
  rw [View.read_writes_eq_canon _ _ _ (scover0_B_0 c i a2 h2 a3 h3 a4 h4 a5 h5 hc x0 x1 xs)]
  unfold kernelRun0_B
  dsimp only
  sl_unfold_words
  rw [View.canon_unit_zero hz2]
  simp only [View.readAt_eq_ld, h2.read_unread, h3.read_unread, h5.read_unread, View.ld_unit_zero (S := S2048x512) hz2,
    View.ld_unit_zero (S := S1024x512) hz2, View.ld_unit_zero (S := S1x1) hz2]

/-- … and the output block is the new running total repeated over the block. -/
theorem out_B (c : Dev nD) (i : grid0.Coords) (a2 : Memref sig .tc .vmem S2048x512 .bf16) (h2 : a2.IsWhole)
    (a3 : Memref sig .tc .vmem S1024x512 .bf16) (h3 : a3.IsWhole) (a4 : Memref sig .tc .vmem S1x8x128 .f32) (h4 : a4.IsWhole)
    (a5 : Memref sig .tc .vmem S1x1 .f32) (h5 : a5.IsWhole) (hc : ¬cond0_0 i)
    (x0 : Vec F S2048x512 .bf16) (x1 : Vec F S1024x512 .bf16) (xs : Vec F S1x1 .f32) :
    out0_B_2 c i a2 h2 a3 h3 a4 h4 a5 h5 hc x0 x1 xs = k0_pay3 (k0_pay2 x0 x1 xs) := by
  unfold out0_B_2
  rw [View.read_writes_eq_canon _ _ _ (cover0_B_2 c i a2 h2 a3 h3 a4 h4 a5 h5 hc x0 x1 xs)]
  unfold kernelRun0_B
  dsimp only
  sl_unfold_words
  simp only [View.readCov_cons_toLoadRect, View.readAt_eq_ld, h2.read_unread, h3.read_unread, h5.read_unread,
    View.ld_unit_zero (S := S2048x512) hz2, View.ld_unit_zero (S := S1024x512) hz2, View.ld_unit_zero (S := S1x1) hz2]
  exact View.canon_unit_zero (S := S1x8x128) hz3 _ _

/-- The first tile of a row band: the scratch cell is zeroed first, so it ends at zero plus the tile's sum. -/
theorem sout_A (c : Dev nD) (i : grid0.Coords) (a2 : Memref sig .tc .vmem S2048x512 .bf16) (h2 : a2.IsWhole)
    (a3 : Memref sig .tc .vmem S1024x512 .bf16) (h3 : a3.IsWhole) (a4 : Memref sig .tc .vmem S1x8x128 .f32) (h4 : a4.IsWhole)
    (a5 : Memref sig .tc .vmem S1x1 .f32) (h5 : a5.IsWhole) (hc : cond0_0 i)
    (x0 : Vec F S2048x512 .bf16) (x1 : Vec F S1024x512 .bf16) :
    sout0_A_0 c i a2 h2 a3 h3 a4 h4 a5 h5 hc x0 x1 = k0_pay2 x0 x1 k0_pay1 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S1x1) hz2]
  simp only [View.readCov_cons_toLoadRect, View.readAt_eq_ld, h2.read_unread, h3.read_unread,
    View.ld_unit_zero (S := S2048x512) hz2, View.ld_unit_zero (S := S1024x512) hz2]

/-- … and the output block is that total repeated over the block. -/
theorem out_A (c : Dev nD) (i : grid0.Coords) (a2 : Memref sig .tc .vmem S2048x512 .bf16) (h2 : a2.IsWhole)
    (a3 : Memref sig .tc .vmem S1024x512 .bf16) (h3 : a3.IsWhole) (a4 : Memref sig .tc .vmem S1x8x128 .f32) (h4 : a4.IsWhole)
    (a5 : Memref sig .tc .vmem S1x1 .f32) (h5 : a5.IsWhole) (hc : cond0_0 i)
    (x0 : Vec F S2048x512 .bf16) (x1 : Vec F S1024x512 .bf16) :
    out0_A_2 c i a2 h2 a3 h3 a4 h4 a5 h5 hc x0 x1 = k0_pay3 (k0_pay2 x0 x1 k0_pay1) := by
  unfold out0_A_2
  rw [View.read_writes_eq_canon _ _ _ (cover0_A_2 c i a2 h2 a3 h3 a4 h4 a5 h5 hc x0 x1)]
  unfold kernelRun0_A
  dsimp only
  sl_unfold_words
  simp only [View.readCov_cons_toLoadRect, View.readAt_eq_ld, h2.read_unread, h3.read_unread,
    View.ld_unit_zero (S := S2048x512) hz2, View.ld_unit_zero (S := S1024x512) hz2]
  exact View.canon_unit_zero (S := S1x8x128) hz3 _ _

end Cert.KernelIdeal.Body

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.TileSum.lean ====
/-
  The kernel body's arithmetic on the extended reals.

  One tile pairs a band `X` of 2048 rows with a band `Y` of 1024 rows (512 columns each). The body multiplies `X` by the
  transpose of `Y`, adds the 2048 × 1024 products of rows first down each column and then along the remaining row, and
  adds the result to the running total. So the one cell of the running total becomes

      total + ∑ c < 1024, ∑ r < 2048, ∑ k < 512, X r k · Y c k .

  The zero the total starts from is the real number 0, and the output block repeats the one cell at every position.
-/
import proofs.«173129_j90417651516231_2_alg».proof.Proof.Gen.KernelIdeal.Skeleton
import proofs.«173129_j90417651516231_2_alg».proof.Proof.LibMlpRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx
open Cert.KernelIdeal Cert.KernelIdeal.Gen
open scoped BigOperators

/-- Adding a matrix up along its rows leaves, at column `c`, the sum of that column. -/
theorem columnSum_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (funext fun d => Fin.ext (by
      match d with
      | ⟨0, _⟩ => rfl
      | ⟨1, _⟩ => rfl)))

/-- Adding a matrix up along its columns leaves, at row `p`, the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- A one-cell array has one index. -/
instance : Subsingleton S1x1.Idx :=
  ⟨fun a b => funext fun d => by
    match d with
    | ⟨0, _⟩ => exact Subsingleton.elim (α := Fin 1) _ _
    | ⟨1, _⟩ => exact Subsingleton.elim (α := Fin 1) _ _⟩

/-- The zero the running total is reset to is the real number zero. -/
theorem pay1_apply (j : S1x1.Idx) : k0_pay1 (F := Ideal) j = 0 := by
  unfold k0_pay1
  refine (congrFun (shapeCast_self _ _) j).trans ?_
  exact Ideal.ofBits_zero_f32

/-- The output block repeats the one cell of the running total. -/
theorem pay3_apply (v : Vec Ideal S1x1 .f32) (j : S1x8x128.Idx) (j0 : S1x1.Idx) : k0_pay3 v j = v j0 := by
  unfold k0_pay3 broadcastTo shapeCast
  exact congrArg v (Subsingleton.elim _ _)

/-- One tile: the running total grows by the sum of all products of a row of `X` with a row of `Y`. -/
theorem pay2_apply (x0 : Vec Ideal S2048x512 .bf16) (x1 : Vec Ideal S1024x512 .bf16) (acc : Vec Ideal S1x1 .f32) (j : S1x1.Idx) :
    k0_pay2 x0 x1 acc j = acc j + ∑ c : Fin 1024, ∑ r : Fin 2048, ∑ k : Fin 512, x0 (ix2 r k) * x1 (ix2 c k) := by
  unfold k0_pay2
  refine (congrFun (shapeCast_self _ _) j).trans ?_
  refine congrArg (acc j + ·) ?_
  refine (shapeCast_apply _ _ j (ix1 (0 : Fin 1)) ?_).trans ?_
  · rw [Shape.rowMajor_val_two, Shape.rowMajor_val_one]
    have h0 : (j 0).val < 1 := (j 0).isLt
    have h1 : (j 1).val < 1 := (j 1).isLt
    show (0 : ℕ) = (j 0).val * 1 + (j 1).val
    omega
  refine (rowSum_apply _ _ _ _ _ (0 : Fin 1)).trans ?_
  refine Finset.sum_congr rfl fun c _ => ?_
  refine (shapeCast_a_1a_apply _ _ (0 : Fin 1) c).trans ?_
  refine (columnSum_apply _ _ _ _ _ c).trans ?_
  refine Finset.sum_congr rfl fun r _ => ?_
  refine (Cert.LibMlp.matmul_zero_plain 2048 512 1024 none _ _ r c).trans ?_
  refine Finset.sum_congr rfl fun k _ => ?_
  exact congrArg₂ (· * ·) (congrFun (shapeCast_self x0 _) _)
    ((transpose_ix2_apply _ _ k c).trans (congrFun (shapeCast_self x1 _) _))

end Cert.KernelIdeal.Tile

end
-- ==== Proof.RunningTotal.lean ====
/-
  The running total across the grid.

  The grid has eight points; point `t` pairs row band `t / 4` of the first matrix with row band `t % 4` of the second.
  The scratch cell is reset at the points divisible by four and grows by one tile's sum at every point, so after
  point `t` it holds the sums of the tiles `4 · (t / 4), …, t` — the tiles of the current band of the first matrix seen
  so far — and the output block repeats that cell.
-/
import proofs.«173129_j90417651516231_2_alg».proof.Proof.TilePieces
import proofs.«173129_j90417651516231_2_alg».proof.Proof.TileSum

noncomputable section

namespace Cert.KernelIdeal.Total

open Idealize.ShloMosaic Idealize.ShloMosaic.TcCoe Idealize.SL.Sem Idealize.ShloMosaic.ValueIdx
open Cert.KernelIdeal Cert.KernelIdeal.Gen Cert.KernelIdeal.Body Cert.KernelIdeal.Tile
open scoped BigOperators

variable (m : (ℓ : Loc nD τ sig) → Buf (Elt Ideal) ℓ)

/-- The two input windows' blocks at a grid point, as matrices of 2048 and of 1024 rows. -/
def blockX (c : Dev nD) (t : Fin cfg0.N) : Vec Ideal S2048x512 .bf16 := iblk m c 0 t
def blockY (c : Dev nD) (t : Fin cfg0.N) : Vec Ideal S1024x512 .bf16 := iblk m c 1 t

/-- The sum of tile `n`: every product of a row of the first window's block at point `n` with a row of the second
    window's block there (zero past the grid, so that the point may be any natural number). -/
def tileSum (c : Dev nD) (n : ℕ) : EReal :=
  if h : n < cfg0.N then
    ∑ cc : Fin 1024, ∑ r : Fin 2048, ∑ k : Fin 512, blockX m c ⟨n, h⟩ (ix2 r k) * blockY m c ⟨n, h⟩ (ix2 cc k)
  else 0

/-- What a resetting point leaves in the scratch cell, and how a later point changes it. -/
def reset (c : Dev nD) (n : ℕ) (h : n < cfg0.N) : Vec Ideal S1x1 .f32 :=
  k0_pay2 (blockX m c ⟨n, h⟩) (blockY m c ⟨n, h⟩) (k0_pay1 (F := Ideal))
def step (c : Dev nD) (n : ℕ) (h : n < cfg0.N) (acc : Vec Ideal S1x1 .f32) : Vec Ideal S1x1 .f32 :=
  k0_pay2 (blockX m c ⟨n, h⟩) (blockY m c ⟨n, h⟩) acc

theorem total_reset (c : Dev nD) (n : ℕ) (h : n < cfg0.N) (h0 : n % 4 = 0) : (outsAt0 m c n h).2 = reset m c n h := by
  rw [outsAt0_A m c ⟨n, h⟩ h0]
  dsimp only
  rw [sout_A]
  rfl

theorem total_step (c : Dev nD) (n : ℕ) (h : n + 1 < cfg0.N) (h0 : ¬(n + 1) % 4 = 0) :
    (outsAt0 m c (n + 1) h).2 = step m c (n + 1) h (outsAt0 m c n (Nat.lt_of_succ_lt h)).2 := by
  rw [outsAt0_B m c ⟨n + 1, h⟩ h0]
  dsimp only
  rw [sout_B]
  rfl

/-- The output block after any point repeats the scratch cell after that point. -/
theorem out_eq (c : Dev nD) (n : ℕ) (h : n < cfg0.N) : (outsAt0 m c n h).1 = k0_pay3 (outsAt0 m c n h).2 := by
  by_cases h0 : n % 4 = 0
  · rw [outsAt0_A m c ⟨n, h⟩ h0]
    dsimp only
    rw [out_A, sout_A]
  · rw [outsAt0_B m c ⟨n, h⟩ h0]
    dsimp only
    rw [out_B, sout_B]

/-- After point `t` the scratch cell holds the sums of the tiles of the current band seen so far. -/
theorem total_eq (c : Dev nD) (t : ℕ) (ht : t < cfg0.N) (j : S1x1.Idx) :
    (outsAt0 m c t ht).2 j = 0 + ∑ s ∈ Finset.range (t % 4 + 1), tileSum m c (4 * (t / 4) + s) := by
  have h' : 4 * (t / 4) + t % 4 < cfg0.N := by rw [Nat.div_add_mod]; exact ht
  have e := Pipeline.eq_accAt_of_mod (fun n h => (outsAt0 m c n h).2) 4 (reset m c) (step m c)
    (fun n h h0 => total_reset m c n h h0) (fun n h h0 => total_step m c n h h0) (by decide) t ht h'
  refine (congrFun e j).trans ?_
  have hmod : t % 4 ≤ 3 := by omega
  refine Pipeline.accAt_add_apply (reset m c) (step m c) (fun _ => (0 : EReal)) (fun n _ => tileSum m c n) (4 * (t / 4)) 3
    (fun h i => ?_) (fun n h acc i _ _ => ?_) (t % 4) hmod h' j
  · refine (pay2_apply (blockX m c ⟨4 * (t / 4), h⟩) (blockY m c ⟨4 * (t / 4), h⟩) (k0_pay1 (F := Ideal)) i).trans ?_
    rw [pay1_apply]
    unfold tileSum
    rw [dif_pos h]
  · refine (pay2_apply (blockX m c ⟨n, h⟩) (blockY m c ⟨n, h⟩) acc i).trans ?_
    unfold tileSum
    rw [dif_pos h]

/-- So a point that writes the output block back (the last of its band) writes the band's whole sum, at every position. -/
theorem out_apply (c : Dev nD) (t : ℕ) (ht : t < cfg0.N) (h3 : t % 4 = 3) (y : S1x8x128.Idx) :
    (outsAt0 m c t ht).1 y = 0 + ∑ s ∈ Finset.range 4, tileSum m c (4 * (t / 4) + s) := by
  rw [out_eq]
  refine (pay3_apply _ y (ix2 (0 : Fin 1) (0 : Fin 1))).trans ?_
  rw [total_eq, h3]

end Cert.KernelIdeal.Total

end
-- ==== Proof.Bands.lean ====
/-
  The arrays the kernel region finds, the blocks its windows read, and the array it leaves.

  Before the region the host has divided every row of the two inputs by its norm (floored at a small constant) and
  narrowed the results to sixteen bits, which changes nothing on the extended reals: the two arrays the windows stage are
  the normalised matrices `X` and `Y`. At grid point `t` the first window's block is the band of 2048 rows of `X`
  starting at row `2048 · (t / 4)`, the second window's the band of 1024 rows of `Y` starting at row `1024 · (t % 4)`.
  The output array has one block per band of `X`; it is written back after the band's last tile, so every position of
  block `i` ends at the sum of the four tiles `4 i, …, 4 i + 3`.
-/
import proofs.«173129_j90417651516231_2_alg».proof.Proof.RunningTotal
import proofs.«173129_j90417651516231_2_alg».proof.Proof.Gen.ReferenceIdeal.Read
import Idealize.ShloMosaic.Lib.StableHlo.Run

noncomputable section

namespace Cert.KernelIdeal.Bands

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Total
open scoped BigOperators

variable (m : (ℓ : Loc nD τ sig) → Buf (Elt Ideal) ℓ)

/-- The two normalised matrices: each input with every row divided by the larger of its norm and the floor. -/
abbrev X (c : Dev nD) : S4096x512.Idx → EReal :=
  Cert.ReferenceIdeal.Read.val_main_v6 (F := Ideal) (m ((c : Thread nD τ).loc main_arg0))
abbrev Y (c : Dev nD) : S4096x512.Idx → EReal :=
  Cert.ReferenceIdeal.Read.val_main_v11 (F := Ideal) (m ((c : Thread nD τ).loc main_arg1))

/-- The first window's array, as the region finds it, is `X`. -/
theorem V_v20 (c : Dev nD) : (V m c main_v20 : S4096x512.Idx → EReal) = X m c := by
  show StableHlo.after hostOps0 (fun b => m (c, b)) (Proc.devRef .tc main_v20) = _
  after_results
  rfl

/-- The second window's array is `Y`. -/
theorem V_v21 (c : Dev nD) : (V m c main_v21 : S4096x512.Idx → EReal) = Y m c := by
  show StableHlo.after hostOps0 (fun b => m (c, b)) (Proc.devRef .tc main_v21) = _
  after_results
  rfl

/-- The windows' block indices at each grid point, decided over the eight points. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

/-- Row `r` of the first window's block at point `t` is row `2048 · (t / 4) + r` of `X`. -/
theorem iblk0_apply (c : Dev nD) (t : Fin cfg0.N) (r : Fin 2048) (k : Fin 512) (hr : 2048 * (t.val / 4) + r.val < 4096) :
    (iblk m c 0 t : Vec Ideal S2048x512 .bf16) (ix2 r k) = X m c (ix2 ⟨2048 * (t.val / 4) + r.val, hr⟩ k) := by
  obtain ⟨e0, e1, -⟩ := idx_facts t
  unfold iblk
  rw [View.read_apply]
  show (V m c main_v20 : S4096x512.Idx → EReal) _ = _
  rw [V_v20]
  refine congrArg (X m c) (funext fun a => Fin.ext ?_)
  match a with
  | ⟨0, _⟩ => show win0_0.index t (0 : Fin 2) * 2048 + 1 * r.val = 2048 * (t.val / 4) + r.val; rw [e0]; omega
  | ⟨1, _⟩ => show win0_0.index t (1 : Fin 2) * 512 + 1 * k.val = k.val; rw [e1]; omega

/-- Row `q` of the second window's block at point `t` is row `1024 · (t % 4) + q` of `Y`. -/
theorem iblk1_apply (c : Dev nD) (t : Fin cfg0.N) (q : Fin 1024) (k : Fin 512) (hq : 1024 * (t.val % 4) + q.val < 4096) :
    (iblk m c 1 t : Vec Ideal S1024x512 .bf16) (ix2 q k) = Y m c (ix2 ⟨1024 * (t.val % 4) + q.val, hq⟩ k) := by
  obtain ⟨-, -, e2, e3, -⟩ := idx_facts t
  unfold iblk
  rw [View.read_apply]
  show (V m c main_v21 : S4096x512.Idx → EReal) _ = _
  rw [V_v21]
  refine congrArg (Y m c) (funext fun a => Fin.ext ?_)
  match a with
  | ⟨0, _⟩ => show win0_1.index t (0 : Fin 2) * 1024 + 1 * q.val = 1024 * (t.val % 4) + q.val; rw [e2]; omega
  | ⟨1, _⟩ => show win0_1.index t (1 : Fin 2) * 512 + 1 * k.val = k.val; rw [e3]; omega

/-- What the output array ends holding: at every position of block `i`, the sum of the four tiles of band `i`. -/
def bandTotals (c : Dev nD) : S2x8x128.Idx → EReal :=
  fun i => 0 + ∑ s ∈ Finset.range 4, tileSum m c (4 * (i 0).val + s)

/-- A point that writes the output back writes its block of `bandTotals`. -/
theorem flushed_eq (c : Dev nD) (t : Fin cfg0.N) (hf : (cfg0.win 2).flush t = true) :
    (dats m 0 c).flushed 2 t = ((cfg0.win 2).blk t).view.read (Elt Ideal) (bandTotals m c) := by
  have h3 : t.val % 4 = 3 := (flush0_2 t).mp hf
  obtain ⟨-, -, -, -, e4, -⟩ := idx_facts t
  show (cfg0.win 2).cut (grid0.coords t) ((dats m 0 c).after 2 t) = _
  rw [after0_2]
  funext y
  rw [View.read_apply]
  show (outsAt0 m c t.val t.isLt).1 y = bandTotals m c (((cfg0.win 2).blk t).view.emb y)
  rw [out_apply m c t.val t.isLt h3 y]
  have e : ((((cfg0.win 2).blk t).view.emb y) 0).val = t.val / 4 := by
    show win0_2.index t (0 : Fin 3) * 1 + 1 * (y 0).val = _
    have hy : (y 0).val < 1 := (y 0).isLt
    rw [e4]; omega
  unfold bandTotals
  rw [e]

/-- An index of the output array is in point `t`'s block iff each coordinate is in the block's range. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v22).slice (win0_2.rect t)).set ↔ _
  rw [View.set_slice_whole, Rect.mem_set_unit]
  exact Iff.rfl

/-- The output array after the run. -/
theorem final (c : Dev nD) : (dats m 0 c).arrAt 2 cfg0.N = bandTotals m c := by
  have hN : cfg0.N = 8 := N_0
  refine (dats m 0 c).arrAt_eq_of_cover 2 (bandTotals m c) (fun t hf => flushed_eq m c t hf) fun i => ?_
  have hi0 : (i 0).val < 2 := (i 0).isLt
  have hi1 : (i 1).val < 8 := (i 1).isLt
  have hi2 : (i 2).val < 128 := (i 2).isLt
  have ht : 4 * (i 0).val + 3 < cfg0.N := by rw [hN]; omega
  refine ⟨⟨4 * (i 0).val + 3, ht⟩, (flush0_2 _).mpr (by show (4 * (i 0).val + 3) % 4 = 3; omega), ?_⟩
  obtain ⟨-, -, -, -, e4, e5, e6⟩ := idx_facts ⟨4 * (i 0).val + 3, ht⟩
  have e4' : win0_2.index ⟨4 * (i 0).val + 3, ht⟩ (0 : Fin 3) = (i 0).val := by rw [e4]; show (4 * (i 0).val + 3) / 4 = _; omega
  rw [mem_blk]
  intro a
  match a with
  | ⟨0, _⟩ => show win0_2.index ⟨4 * (i 0).val + 3, ht⟩ (0 : Fin 3) * 1 ≤ (i 0).val ∧ (i 0).val < win0_2.index ⟨4 * (i 0).val + 3, ht⟩ (0 : Fin 3) * 1 + 1; rw [e4']; omega
  | ⟨1, _⟩ => show win0_2.index ⟨4 * (i 0).val + 3, ht⟩ (1 : Fin 3) * 8 ≤ (i 1).val ∧ (i 1).val < win0_2.index ⟨4 * (i 0).val + 3, ht⟩ (1 : Fin 3) * 8 + 8; rw [e5]; omega
  | ⟨2, _⟩ => show win0_2.index ⟨4 * (i 0).val + 3, ht⟩ (2 : Fin 3) * 128 ≤ (i 2).val ∧ (i 2).val < win0_2.index ⟨4 * (i 0).val + 3, ht⟩ (2 : Fin 3) * 128 + 128; rw [e6]; omega

end Cert.KernelIdeal.Bands

end
-- ==== Proof.LibIsReal.lean ====
/-
  A small calculus for "this extended real is a real number".

  At the exact instance a float is an extended real, and laws that cancel or distribute hold only away from the
  infinities.  A program whose inputs are real numbers keeps real numbers through sums, products, finite sums of
  products (a matrix product's entry), maxima (a ReLU, a row maximum) and differences; this file states each closure
  once, so that "every entry is real" can be carried layer by layer instead of being re-derived:

  * `IsReal x`: `x` is the coercion of a real number; `IsReal.ne_top`, `IsReal.ne_bot`;
  * closure: `coe`, `zero`, `add`, `sub`, `neg`, `mul`, `max`, `sum` (any finite sum), `sum_mul` (a finite sum of
    products), `sup` (a nonempty finite supremum);
  * `isReal_of_abs_lt_top`: an extended real whose absolute value `max x (-x)` is below `⊤` is a real number (the
    form in which a "finite input" precondition reads).
-/
import Idealize.ShloMosaic.PureOps.Ideal

namespace Idealize.ShloMosaic

/-- `x` is (the coercion of) a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem of_ne {x : EReal} (ht : x ≠ ⊤) (hb : x ≠ ⊥) : IsReal x := by
  induction x using EReal.rec with
  | bot => exact absurd rfl hb
  | coe r => exact ⟨r, rfl⟩
  | top => exact absurd rfl ht

theorem add {x y : EReal} (hx : IsReal x) (hy : IsReal y) : IsReal (x + y) := by
  obtain ⟨a, rfl⟩ := hx; obtain ⟨b, rfl⟩ := hy; exact ⟨a + b, (EReal.coe_add a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩

/-- A finite sum of real numbers is a real number. -/
theorem sum {ι : Type} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A finite sum of products of real numbers (an entry of a matrix product) is a real number. -/
theorem sum_mul {ι : Type} [Fintype ι] {f g : ι → EReal} (hf : ∀ i, IsReal (f i)) (hg : ∀ i, IsReal (g i)) :
    IsReal (∑ i, f i * g i) :=
  sum Finset.univ fun i _ => mul (hf i) (hg i)

/-- A nonempty finite supremum of real numbers is a real number. -/
theorem sup {ι : Type} {s : Finset ι} (hs : s.Nonempty) {f : ι → EReal} (h : ∀ i ∈ s, IsReal (f i)) : IsReal (s.sup f) := by
  classical
  induction hs using Finset.Nonempty.cons_induction with
  | singleton a => rw [Finset.sup_singleton]; exact h a (Finset.mem_singleton_self a)
  | cons a s ha hs ih =>
    rw [Finset.sup_cons]
    exact max (h a (Finset.mem_cons_self a s)) (ih fun i hi => h i (Finset.mem_cons.mpr (Or.inr hi)))

end IsReal

/-- An extended real whose absolute value is below `⊤` is a real number. -/
theorem isReal_of_abs_lt_top {x : EReal} (h : Max.max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

end Idealize.ShloMosaic
-- ==== Proof.MeanLaw.lean ====
/-
  The arithmetic that joins the two programs, on the extended reals.

  Both programs start from the same two matrices `A`, `B` of 4096 rows and 512 columns (the row-normalised inputs)
  and write `S n m = ∑ k, A n k · B m k` for the product of row `n` of `A` with row `m` of `B`.

  * The tiled program adds up `S n m` over every pair, tile by tile (two bands of 2048 rows of `A`, four bands of 1024
    rows of `B`), subtracts the diagonal `∑ n, S n n` — computed as the sum of every entry of the entrywise product
    `A · B` — and multiplies by `2⁻²⁴`.
  * The other program multiplies each `S n m` by `1 - [n = m]`, adds everything up and divides by `2²⁴`.

  Regrouping the tiles into the plain double sum only reorders a finite sum, which is allowed on the extended reals.
  Dropping the diagonal needs cancellation (`S n n · 0 = 0` against `S n n - S n n = 0`), which holds when every
  `S n m` is a real number; that is the one place where the entries must be known to be finite. Division by `2²⁴` is the
  product with `2⁻²⁴` for every extended real.
-/
import Mathlib
import Idealize.ShloMosaic.Lib.ValueIdx
import Idealize.ShloMosaic.PureOps.Ideal
import proofs.«173129_j90417651516231_2_alg».proof.Proof.LibIsReal

noncomputable section

namespace Cert.CosineMean

open Idealize.ShloMosaic Idealize.ShloMosaic.ValueIdx
open scoped BigOperators

/-- The sum over `q` consecutive blocks of `b` positions is the sum over the first `b * q` positions. -/
theorem sum_blocks {M : Type*} [AddCommMonoid M] (b q : ℕ) (f : ℕ → M) :
    ∑ i ∈ Finset.range q, ∑ r ∈ Finset.range b, f (b * i + r) = ∑ n ∈ Finset.range (b * q), f n := by
  induction q with
  | zero => simp
  | succ q ih => rw [Finset.sum_range_succ, ih, Nat.mul_succ, Finset.sum_range_add]

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zeroing the diagonal of a square table of real numbers before adding it up removes exactly the diagonal's sum. -/
theorem sum_offdiag {N : ℕ} (S : Fin N → Fin N → EReal) (hS : ∀ n m, IsReal (S n m)) :
    ∑ n, ∑ m, S n m * (1 - (if n = m then (1 : EReal) else 0)) = (∑ n, ∑ m, S n m) - ∑ n, S n n := by
  choose s hs using hS
  have one_sub_one : (1 : EReal) - 1 = 0 := by
    rw [← EReal.coe_one, ← EReal.coe_sub, sub_self, EReal.coe_zero]
  have key : ∀ n m, S n m * (1 - (if n = m then (1 : EReal) else 0)) = ((s n m * (1 - if n = m then (1 : ℝ) else 0) : ℝ) : EReal) := by
    intro n m
    rw [hs n m]
    by_cases h : n = m
    · rw [if_pos h, if_pos h, one_sub_one, mul_zero, sub_self, mul_zero, EReal.coe_zero]
    · rw [if_neg h, if_neg h, sub_zero, sub_zero, mul_one, mul_one]
  simp only [key]
  simp only [hs, ← coe_sum, ← EReal.coe_sub]
  congr 1
  have row : ∀ n, ∑ m, s n m * (1 - if n = m then (1 : ℝ) else 0) = ∑ m, s n m - s n n := by
    intro n
    simp [mul_sub, Finset.sum_sub_distrib]
  simp only [row, Finset.sum_sub_distrib]

end Cert.CosineMean

end
-- ==== Proof.MeanSpec.lean ====
/-
  The two programs' results as two expressions in the normalised matrices, and their equality.

  `A` and `B` have 4096 rows and 512 columns. `tileSum A B t` is what grid point `t` adds: all products of a row of band
  `t / 4` of `A` (2048 rows) with a row of band `t % 4` of `B` (1024 rows). `kernelMean` is the tiled program's
  result, `referenceMean` the other program's. They agree as soon as every entry of `A` and of `B` is a real number.
-/
import proofs.«173129_j90417651516231_2_alg».proof.Proof.MeanLaw

noncomputable section

namespace Cert.CosineMean

open Idealize.ShloMosaic Idealize.ShloMosaic.ValueIdx
open scoped BigOperators

/-- The shape of the normalised matrices. -/
abbrev Mat : Shape := ⟨2, ![4096, 512]⟩

/-- Entry `(n, k)` of a matrix with the row a natural number: zero past the last row. -/
def rowAt (A : Mat.Idx → EReal) (n : ℕ) (k : Fin 512) : EReal :=
  if h : n < 4096 then A (ix2 ⟨n, h⟩ k) else 0

theorem rowAt_of_lt (A : Mat.Idx → EReal) {n : ℕ} (h : n < 4096) (k : Fin 512) : rowAt A n k = A (ix2 ⟨n, h⟩ k) :=
  dif_pos h

/-- The product of row `n` of `A` with row `m` of `B`. -/
def dotRows (A B : Mat.Idx → EReal) (n m : ℕ) : EReal := ∑ k : Fin 512, rowAt A n k * rowAt B m k

/-- What grid point `t` adds to the running total. -/
def tileSum (A B : Mat.Idx → EReal) (t : ℕ) : EReal :=
  ∑ c : Fin 1024, ∑ r : Fin 2048, dotRows A B (2048 * (t / 4) + r.val) (1024 * (t % 4) + c.val)

/-- The tiled program: two band totals of four tiles each, minus the diagonal, times `2⁻²⁴`. -/
def kernelMean (A B : Mat.Idx → EReal) : EReal :=
  ((0 + ∑ i : Fin 2, (0 + ∑ s ∈ Finset.range 4, tileSum A B (4 * i.val + s))) - (0 + ∑ j : Mat.Idx, A j * B j))
    * ((1 / 16777216 : ℝ) : EReal)

/-- The other program: every row product times `1 - [n = m]`, added up, divided by `2²⁴`. -/
def referenceMean (A B : Mat.Idx → EReal) : EReal :=
  Ideal.div (0 + ∑ n : Fin 4096, ∑ m : Fin 4096,
    (∑ k : Fin 512, A (ix2 n k) * B (ix2 m k)) * (1 - (if n = m then (1 : EReal) else 0))) ((16777216 : ℝ) : EReal)

/-- The eight tiles together are every pair of rows, each once. -/
theorem tiles_eq_all (A B : Mat.Idx → EReal) :
    ∑ i : Fin 2, (0 + ∑ s ∈ Finset.range 4, tileSum A B (4 * i.val + s))
      = ∑ n : Fin 4096, ∑ m : Fin 4096, ∑ k : Fin 512, A (ix2 n k) * B (ix2 m k) := by
  have tile : ∀ i s, s ∈ Finset.range 4 → tileSum A B (4 * i + s)
      = ∑ c ∈ Finset.range 1024, ∑ r ∈ Finset.range 2048, dotRows A B (2048 * i + r) (1024 * s + c) := by
    intro i s hs
    have hs4 : s < 4 := Finset.mem_range.mp hs
    have h1 : (4 * i + s) / 4 = i := by omega
    have h2 : (4 * i + s) % 4 = s := by omega
    unfold tileSum
    rw [h1, h2, Finset.sum_range (fun c => ∑ r ∈ Finset.range 2048, dotRows A B (2048 * i + r) (1024 * s + c))]
    refine Finset.sum_congr rfl fun c _ => ?_
    rw [Finset.sum_range (fun r => dotRows A B (2048 * i + r) (1024 * s + c.val))]
  have band : ∀ i : ℕ, (0 + ∑ s ∈ Finset.range 4, tileSum A B (4 * i + s))
      = ∑ r ∈ Finset.range 2048, ∑ m ∈ Finset.range (1024 * 4), dotRows A B (2048 * i + r) m := by
    intro i
    rw [zero_add, Finset.sum_congr rfl (tile i)]
    have : ∀ s ∈ Finset.range 4, ∑ c ∈ Finset.range 1024, ∑ r ∈ Finset.range 2048, dotRows A B (2048 * i + r) (1024 * s + c)
        = ∑ r ∈ Finset.range 2048, ∑ c ∈ Finset.range 1024, dotRows A B (2048 * i + r) (1024 * s + c) :=
      fun s _ => Finset.sum_comm
    rw [Finset.sum_congr rfl this, Finset.sum_comm]
    refine Finset.sum_congr rfl fun r _ => ?_
    exact sum_blocks 1024 4 (fun m => dotRows A B (2048 * i + r) m)
  rw [← Finset.sum_range (fun i => (0 + ∑ s ∈ Finset.range 4, tileSum A B (4 * i + s))), Finset.sum_congr rfl fun i _ => band i,
    sum_blocks 2048 2 (fun n => ∑ m ∈ Finset.range (1024 * 4), dotRows A B n m)]
  show ∑ n ∈ Finset.range 4096, ∑ m ∈ Finset.range 4096, dotRows A B n m = _
  rw [Finset.sum_range (fun n => ∑ m ∈ Finset.range 4096, dotRows A B n m)]
  refine Finset.sum_congr rfl fun n _ => ?_
  rw [Finset.sum_range (fun m => dotRows A B n.val m)]
  refine Finset.sum_congr rfl fun m _ => ?_
  unfold dotRows
  refine Finset.sum_congr rfl fun k _ => ?_
  rw [rowAt_of_lt A n.isLt, rowAt_of_lt B m.isLt]

/-- The sum of every entry of the entrywise product is the sum of the products of equal-numbered rows. -/
theorem diag_eq (A B : Mat.Idx → EReal) :
    ∑ j : Mat.Idx, A j * B j = ∑ n : Fin 4096, ∑ k : Fin 512, A (ix2 n k) * B (ix2 n k) :=
  sum_idx2 (fun j => A j * B j)

/-- The two programs' results agree when the normalised matrices have real entries. -/
theorem kernelMean_eq_referenceMean (A B : Mat.Idx → EReal) (hA : ∀ j, IsReal (A j)) (hB : ∀ j, IsReal (B j)) :
    kernelMean A B = referenceMean A B := by
  unfold kernelMean referenceMean
  rw [Ideal.div_coe (by norm_num : (16777216 : ℝ) ≠ 0), tiles_eq_all, diag_eq, zero_add, zero_add, zero_add,
    sum_offdiag (fun n m => ∑ k : Fin 512, A (ix2 n k) * B (ix2 m k))
      (fun n m => IsReal.sum_mul (fun k => hA (ix2 n k)) (fun k => hB (ix2 m k)))]

end Cert.CosineMean

end
-- ==== Proof.Consts.lean ====
/-
  The float constants the two programs spell, as the extended reals their bit patterns denote: one, the count
  `2²⁴ = 16777216` of entries of the similarity matrix, its reciprocal `2⁻²⁴`, and the floor `≈ 10⁻⁸` under the row norms,
  of which only positivity matters.
-/
import Idealize.ShloMosaic.PureOps.Ideal

noncomputable section

namespace Cert.Consts

open Idealize.ShloMosaic

theorem ofBits_one : Ideal.ofBits .f32 0x3F800000#32 = 1 := by
  simp [Ideal.ofBits, Ideal.ieee, -EReal.coe_mul]; norm_num

theorem ofBits_count : Ideal.ofBits .f32 0x4B800000#32 = ((16777216 : ℝ) : EReal) := by
  simp [Ideal.ofBits, Ideal.ieee, -EReal.coe_mul]; norm_num

theorem ofBits_inv_count : Ideal.ofBits .f32 0x33800000#32 = ((1 / 16777216 : ℝ) : EReal) := by
  simp [Ideal.ofBits, Ideal.ieee, -EReal.coe_mul]; norm_num

/-- The floor under the norms is a positive real number. -/
theorem ofBits_floor : ∃ e : ℝ, 0 < e ∧ Ideal.ofBits .f32 0x322BCC77#32 = (e : EReal) := by
  refine ⟨_, ?_, by simp [Ideal.ofBits, Ideal.ieee, -EReal.coe_mul]; rfl⟩
  positivity

end Cert.Consts

end
-- ==== Proof.KernelValue.lean ====
/-
  The tiled program's result.

  After the kernel region the host takes position `(i, 0, 0)` of each of the two output blocks, adds the two numbers to
  zero, subtracts the sum of every entry of the entrywise product of the two normalised matrices (computed before the
  region) and multiplies by `2⁻²⁴`. With the output array at the band totals, and a tile's sum written over the rows of
  the normalised matrices, this is `kernelMean` of the two normalised matrices.
-/
import proofs.«173129_j90417651516231_2_alg».proof.Proof.Bands
import proofs.«173129_j90417651516231_2_alg».proof.Proof.MeanSpec
import proofs.«173129_j90417651516231_2_alg».proof.Proof.Consts

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Total Cert.KernelIdeal.Bands
open scoped BigOperators

variable (m : (ℓ : Loc nD τ sig) → Buf (Elt Ideal) ℓ) (ρ : Dev nD → PrngReg)

/-- A tile's sum, over the blocks the windows read, is the tile's sum over the rows of the normalised matrices. -/
theorem tileSum_eq (c : Dev nD) (n : ℕ) (h : n < 8) :
    tileSum m c n = Cert.CosineMean.tileSum (X m c) (Y m c) n := by
  have hN : cfg0.N = 8 := N_0
  have hn : n < cfg0.N := by rw [hN]; exact h
  unfold tileSum Cert.CosineMean.tileSum Cert.CosineMean.dotRows
  rw [dif_pos hn]
  refine Finset.sum_congr rfl fun q _ => Finset.sum_congr rfl fun r _ => Finset.sum_congr rfl fun k _ => ?_
  have hq : q.val < 1024 := q.isLt
  have hr : r.val < 2048 := r.isLt
  have h1 : 2048 * (n / 4) + r.val < 4096 := by omega
  have h2 : 1024 * (n % 4) + q.val < 4096 := by omega
  rw [Cert.CosineMean.rowAt_of_lt _ h1, Cert.CosineMean.rowAt_of_lt _ h2]
  exact congrArg₂ (· * ·) (iblk0_apply m c ⟨n, hn⟩ r k h1) (iblk1_apply m c ⟨n, hn⟩ q k h2)

/-- A sum over the indices of a vector is the sum over its positions. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, fun a => ix1 a, fun j => (eq_ix1 j).symm, fun _ => rfl⟩ f (fun a => f (ix1 a))
    (fun j => congrArg f (eq_ix1 j))

set_option maxHeartbeats 4000000 in
/-- The sum of every entry of the entrywise product, as the host left it before the region. -/
theorem V_v19 (c : Dev nD) : (V0 m c (Proc.devRef .tc main_v19) : S_.Idx → EReal)
    = Host.reduceAdd (F := Ideal) (mulf (X m c) (Y m c)) (constant (F := Ideal) S_ .f32 0x00000000#32) reducesTo_S4096x512_S_d0_1 h_S_ := by
  show StableHlo.after hostOps0 (fun b => m (c, b)) (Proc.devRef .tc main_v19) = _
  after_results
  rfl

/-- The program's result buffer after the run. -/
theorem tail_v27 (c : Dev nD) (i : S_.Idx) :
    (Pipeline.afterTail₀ cfgs (dats m) 0 (V0 m) [hostOps1] c main_v27 : S_.Idx → EReal) i
      = Cert.CosineMean.kernelMean (X m c) (Y m c) := by
  unfold Pipeline.afterTail₀
  show StableHlo.after hostOps1 _ (Proc.devRef .tc main_v27) i = _
  after_results
  have hA : Pipeline.withArrays (cfgs 0).spec c (V0 m c) (fun w => (dats m 0 c).arrAt w (cfgs 0).N) (Proc.devRef .tc main_v22)
      = bandTotals m c :=
    (Pipeline.withArrays_arr spec0 launch0.win.arr_inj c _ _ 2).trans (final m c)
  have hB : Pipeline.withArrays (cfgs 0).spec c (V0 m c) (fun w => (dats m 0 c).arrAt w (cfgs 0).N) (Proc.devRef .tc main_v19)
      = V0 m c (Proc.devRef .tc main_v19) :=
    Pipeline.withArrays_of_ne _ c (V0 m c) _ main_v19 (by decide)
  rw [hA, hB, V_v19]
  unfold Cert.CosineMean.kernelMean
  refine congrArg₂ (· * ·) (congrArg₂ (· - ·) ?_ ?_) Cert.Consts.ofBits_inv_count
  · refine (Ideal.hostReduceAdd_total reducesTo_S2_S_d0 (fun b => b.elim0) _ _ i).trans ?_
    refine congrArg₂ (· + ·) Ideal.ofBits_zero_f32 ((sum_idx1 _).trans (Finset.sum_congr rfl fun a _ => ?_))
    refine (shapeCast_apply _ shapeCasts_S2x1x1_S2 (ix1 a) (ix3 a (0 : Fin 1) (0 : Fin 1)) ?_).trans ?_
    · rw [Shape.rowMajor_val_three, Shape.rowMajor_val_one]
      show (a.val * 1 + 0) * 1 + 0 = a.val
      omega
    have ha : a.val < 2 := a.isLt
    refine (extractStridedSlice_apply _ _ slices_S2x8x128_S2x1x1_0_0_0 _ (ix3 a (0 : Fin 8) (0 : Fin 128)) ?_).trans ?_
    · intro d
      match d with
      | ⟨0, _⟩ => show a.val = 0 + a.val; omega
      | ⟨1, _⟩ => rfl
      | ⟨2, _⟩ => rfl
    show 0 + ∑ s ∈ Finset.range 4, tileSum m c (4 * a.val + s) = _
    refine congrArg (0 + ·) (Finset.sum_congr rfl fun s hs => ?_)
    have hs4 : s < 4 := Finset.mem_range.mp hs
    exact tileSum_eq m c (4 * a.val + s) (by omega)
  · exact (Ideal.hostReduceAdd_total reducesTo_S4096x512_S_d0_1 (fun b => b.elim0) _ _ i).trans
      (congrArg₂ (· + ·) Ideal.ofBits_zero_f32 rfl)

/-- The run, read: the result buffer ends at `kernelMean` of the normalised matrices, the arguments unchanged. -/
theorem run : θ_run defs (onTc (τ := τ) (main (F := Ideal))) ⟨m, fun _ => 0, ρ⟩ fun r => ∀ c : Dev nD,
      r.2.mem ((c.tc : Thread nD τ).loc main_v27) = (fun _ => Cert.CosineMean.kernelMean (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v27 (Pipeline.mem_restRefs_of main_v27 (by decide) (by decide))).trans (funext fun i => tail_v27 m c i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.ReferenceValue.lean ====
/-
  The reference program's result, read operation by operation, is `referenceMean` of the two normalised matrices:
  the similarity matrix `S n m = ∑ k, X n k · Y m k` times `1 - [n = m]` (the comparison of the two index grids, turned
  into the number one or zero), every entry added to zero, the total divided by `2²⁴`.
-/
import proofs.«173129_j90417651516231_2_alg».proof.Proof.Gen.ReferenceIdeal.Read
import proofs.«173129_j90417651516231_2_alg».proof.Proof.MeanSpec
import proofs.«173129_j90417651516231_2_alg».proof.Proof.Consts
import Idealize.ShloMosaic.PureOps.Ideal.Laws

noncomputable section

namespace Cert.ReferenceValue

open Idealize.ShloMosaic Idealize.ShloMosaic.ValueIdx
open Cert.ReferenceIdeal Cert.ReferenceIdeal.Read
open scoped BigOperators

/-- Row and column numbers below 4096 compared as 32-bit words, the outcome read as a number: one on the diagonal, zero
    off it. -/
theorem delta (n m : Fin 4096) :
    FloatOps.uitofp (F := Ideal) .f32 (IntOp.cmpi .eq (IntOp.addi (BitVec.ofNat 32 n.val) 0#32) (BitVec.ofNat 32 m.val))
      = if n = m then (1 : EReal) else 0 := by
  have hn : n.val < 4096 := n.isLt
  have hm : m.val < 4096 := m.isLt
  show (((IntOp.cmpi .eq (IntOp.addi (BitVec.ofNat 32 n.val) 0#32) (BitVec.ofNat 32 m.val)).toNat : ℝ) : EReal) = _
  unfold IntOp.cmpi IntOp.addi
  rw [BitVec.add_zero]
  by_cases h : n = m
  · subst h
    simp
  · have hne : ¬BitVec.ofNat 32 n.val = BitVec.ofNat 32 m.val := by
      intro e
      apply h
      apply Fin.ext
      have e' := congrArg BitVec.toNat e
      rw [BitVec.toNat_ofNat, BitVec.toNat_ofNat, Nat.mod_eq_of_lt (by omega), Nat.mod_eq_of_lt (by omega)] at e'
      exact e'
    simp [h, hne]

theorem lidx_eq (n m : Fin 4096) (k : Fin 512) : lidx_main_v12 (ix2 n m) k = ix2 n k :=
  funext fun a => Fin.ext (by
    match a with
    | ⟨0, _⟩ => rfl
    | ⟨1, _⟩ => rfl)

theorem ridx_eq (n m : Fin 4096) (k : Fin 512) : ridx_main_v12 (ix2 n m) k = ix2 m k :=
  funext fun a => Fin.ext (by
    match a with
    | ⟨0, _⟩ => rfl
    | ⟨1, _⟩ => rfl)

/-- One entry of the masked similarity matrix. -/
theorem masked_apply (x y : S4096x512x1x1.Idx → EReal) (n m : Fin 4096) :
    val_main_v21 (F := Ideal) x y (ix2 n m)
      = (∑ k : Fin 512, val_main_v6 (F := Ideal) x (ix2 n k) * val_main_v11 (F := Ideal) y (ix2 m k))
        * (1 - (if n = m then (1 : EReal) else 0)) := by
  rw [val_main_v21_apply, val_main_v12_apply, val_main_v20_apply, val_main_v19_apply, val_main_cst_1_apply,
    val_main_v18_apply, val_main_v17_apply, val_main_v16_apply, val_main_v13_apply, val_main_v14_apply, val_main_v15_apply,
    val_main_c_apply]
  simp only [Ideal.mulf_def, Ideal.subf_def, Ideal.ofBits_def, Cert.Consts.ofBits_one]
  exact congrArg₂ (· * ·)
    (Finset.sum_congr rfl fun k _ => congrArg₂ (· * ·) (congrArg _ (lidx_eq n m k)) (congrArg _ (ridx_eq n m k)))
    (congrArg (1 - ·) (delta n m))

/-- The reference's result is `referenceMean` of the normalised matrices. -/
theorem result_eq (x y : S4096x512x1x1.Idx → EReal) (i : S_.Idx) :
    val_main_v23 (F := Ideal) x y i
      = Cert.CosineMean.referenceMean (val_main_v6 (F := Ideal) x) (val_main_v11 (F := Ideal) y) := by
  rw [val_main_v23_apply, val_main_v22_apply, val_main_cst_3_apply, val_main_cst_2_apply]
  simp only [Ideal.hostDivf_def, Ideal.ofBits_def, Cert.Consts.ofBits_count, Ideal.ofBits_zero_f32]
  unfold Cert.CosineMean.referenceMean
  rw [sum_idx2]
  refine congrArg (fun z => Ideal.div (0 + z) ((16777216 : ℝ) : EReal)) ?_
  exact Finset.sum_congr rfl fun n _ => Finset.sum_congr rfl fun m _ => masked_apply x y n m

end Cert.ReferenceValue

end
-- ==== Proof.Normalised.lean ====
/-
  The normalised matrices have real entries when the inputs do.

  An entry of a normalised matrix is `x / max (sqrt (0 + ∑ k, x_k · x_k)) floor` over one row of the input. If the row's
  entries are real numbers, the sum of squares is a real number that is not negative, its square root is a real number,
  the maximum with the positive floor is a positive real number, and the quotient by it is a real number — division
  by zero, which would give an infinity, cannot happen.
-/
import proofs.«173129_j90417651516231_2_alg».proof.Proof.Gen.ReferenceIdeal.Read
import proofs.«173129_j90417651516231_2_alg».proof.Proof.LibIsReal
import proofs.«173129_j90417651516231_2_alg».proof.Proof.Consts
import Idealize.ShloMosaic.PureOps.Ideal.Laws

noncomputable section

namespace Cert.Normalised

open Idealize.ShloMosaic
open Cert.ReferenceIdeal Cert.ReferenceIdeal.Read
open scoped BigOperators

/-- A real number divided by the larger of the square root of a non-negative real number and a positive real number is a
    real number. -/
theorem isReal_div_max_sqrt {a s e : EReal} (ha : IsReal a) (hs : IsReal s) (hs0 : 0 ≤ s)
    (he : ∃ ε : ℝ, 0 < ε ∧ e = (ε : EReal)) : IsReal (Ideal.div a (max (Ideal.sqrt s) e)) := by
  obtain ⟨r, rfl⟩ := hs
  have hr : 0 ≤ r := EReal.coe_nonneg.mp hs0
  obtain ⟨ε, hε, rfl⟩ := he
  show IsReal (Ideal.div a (max (if r < 0 then ⊥ else ((Real.sqrt r : ℝ) : EReal)) (ε : EReal)))
  rw [if_neg (not_lt.mpr hr)]
  have hm : max ((Real.sqrt r : ℝ) : EReal) (ε : EReal) = ((max (Real.sqrt r) ε : ℝ) : EReal) :=
    (EReal.coe_strictMono.monotone.map_max (a := Real.sqrt r) (b := ε)).symm
  rw [hm, Ideal.div_coe (ne_of_gt (lt_max_of_lt_right hε))]
  exact IsReal.mul ha (IsReal.coe _)

/-- Zero plus a sum of squares of real numbers is a real number and is not negative. -/
theorem sumSq {ι : Type} [Fintype ι] (y : ι → EReal) (hy : ∀ k, IsReal (y k)) :
    IsReal (Ideal.ofBits .f32 0x00000000#32 + ∑ k, y k * y k) ∧ 0 ≤ Ideal.ofBits .f32 0x00000000#32 + ∑ k, y k * y k := by
  rw [Ideal.ofBits_zero_f32, zero_add]
  refine ⟨IsReal.sum_mul hy hy, Finset.sum_nonneg fun k _ => ?_⟩
  obtain ⟨r, hr⟩ := hy k
  rw [hr, ← EReal.coe_mul]
  exact EReal.coe_nonneg.mpr (mul_self_nonneg r)

/-- Every entry of the first normalised matrix is real when every entry of the first input is. -/
theorem isReal_v6 (x : S4096x512x1x1.Idx → EReal) (hx : ∀ i, IsReal (x i)) (i : S4096x512.Idx) :
    IsReal (val_main_v6 (F := Ideal) x i) := by
  rw [val_main_v6_apply, val_main_v0_apply, val_main_v5_apply, val_main_v4_apply, val_main_v2_apply,
    val_main_call0_v2_apply, val_main_call0_v1_apply, val_main_v3_apply, val_main_cst_apply, val_main_call0_cst_apply]
  simp only [val_main_call0_v0_apply, val_main_v0_apply, Ideal.hostDivf_def, Ideal.hostUnary_sqrt_def, Ideal.maximumf_def,
    Ideal.mulf_def, Ideal.ofBits_def]
  obtain ⟨h1, h2⟩ := sumSq (fun k : Fin 512 => x (idx_main_v0 (idx_main_call0_v1 (idx_main_call0_v2 (idx_main_v5 i)) k))) (fun k => hx _)
  exact isReal_div_max_sqrt (hx _) h1 h2 Cert.Consts.ofBits_floor

/-- Every entry of the second normalised matrix is real when every entry of the second input is. -/
theorem isReal_v11 (x : S4096x512x1x1.Idx → EReal) (hx : ∀ i, IsReal (x i)) (i : S4096x512.Idx) :
    IsReal (val_main_v11 (F := Ideal) x i) := by
  rw [val_main_v11_apply, val_main_v1_apply, val_main_v10_apply, val_main_v9_apply, val_main_v7_apply,
    val_main_call1_v2_apply, val_main_call1_v1_apply, val_main_v8_apply, val_main_cst_0_apply, val_main_call1_cst_apply]
  simp only [val_main_call1_v0_apply, val_main_v1_apply, Ideal.hostDivf_def, Ideal.hostUnary_sqrt_def, Ideal.maximumf_def,
    Ideal.mulf_def, Ideal.ofBits_def]
  obtain ⟨h1, h2⟩ := sumSq (fun k : Fin 512 => x (idx_main_v1 (idx_main_call1_v1 (idx_main_call1_v2 (idx_main_v10 i)) k))) (fun k => hx _)
  exact isReal_div_max_sqrt (hx _) h1 h2 Cert.Consts.ofBits_floor

end Cert.Normalised

end
-- ==== Proof.FiniteInputs.lean ====
/-
  What the precondition says: every entry of both inputs is a real number.

  The precondition compares the absolute value `max x (-x)` of every entry with `+∞` and takes the conjunction of all
  the outcomes, for each input, and then of the two. If the result is true, every single comparison is, and an extended
  real whose absolute value is below `+∞` is a real number.
-/
import proofs.«173129_j90417651516231_2_alg».proof.Pre_finite_inputs
import proofs.«173129_j90417651516231_2_alg».proof.Proof.LibIsReal
import Idealize.ShloMosaic.Lib.ReduceAll
import Idealize.ShloMosaic.Lib.ValueIdx
import Idealize.ShloMosaic.PureOps.Ideal.Laws

noncomputable section

namespace Cert.FiniteInputs

open Idealize.ShloMosaic

instance : Subsingleton Cert.Pre_finite_inputs.S_.Idx := ⟨fun a b => funext fun d => d.elim0⟩

/-- The pattern of `+∞`. -/
theorem ofBits_inf : Ideal.ofBits .f32 0x7F800000#32 = ⊤ := by
  simp [Ideal.ofBits, Ideal.ieee]

/-- One entry: if `|x| < +∞` compares true, `x` is a real number. -/
theorem isReal_of_lt (x : EReal) (h : Ideal.cmp .olt (max x (-x)) (Ideal.ofBits .f32 0x7F800000#32) = 1#1) : IsReal x := by
  rw [ofBits_inf] at h
  have hlt : max x (-x) < ⊤ := by
    by_contra hn
    unfold Ideal.cmp at h
    simp [hn] at h
  exact isReal_of_abs_lt_top hlt

/-- Both inputs have real entries when the precondition holds of them. -/
theorem real_of_pre [Cert.Pre_finite_inputs.Facts] (a b : FVec Ideal Cert.Pre_finite_inputs.S4096x512x1x1 .f32)
    (h : Cert.Pre_finite_inputs.fn (F := Ideal) a b = fun _ => 1#1) : (∀ i, IsReal (a i)) ∧ (∀ i, IsReal (b i)) := by
  have h0 := congrFun h ValueIdx.ix0
  dsimp only [Cert.Pre_finite_inputs.fn] at h0
  obtain ⟨h3, h7⟩ := IntOp.andi_eq_one.1 h0
  exact ⟨fun i => isReal_of_lt _ (Host.reduce_andi_all _ _ _ _ _ h3 i),
    fun i => isReal_of_lt _ (Host.reduce_andi_all _ _ _ _ _ h7 i)⟩

end Cert.FiniteInputs

end
-- ==== Proof.lean ====
/-
  Both programs compute the mean, over all 4096 × 4096 pairs of rows, of the cosine similarity of a row of the first
  input with a row of the second, with the 4096 pairs of equal-numbered rows left out of the sum.

  Each program first divides every row by the larger of its norm and a small positive floor. Write `X`, `Y` for the two
  normalised matrices and `S n m = ∑ k, X n k · Y m k`.

  * The tiled program walks a 2 × 4 grid of tiles (2048 rows of `X` against 1024 rows of `Y`), keeps a running total
    of each tile's sum of products per band of `X`, adds the two band totals, subtracts `∑ n, S n n` (computed as the sum
    of all entries of the entrywise product of `X` and `Y`) and multiplies by `2⁻²⁴`.
  * The other program multiplies `S n m` by `1 - [n = m]`, adds up all entries and divides by `2²⁴`.

  On the extended reals the tiles regroup into the plain double sum without any condition. Removing the diagonal by
  subtraction instead of by a zero factor needs every `S n m` to be a real number, which holds because the inputs are
  finite: a row of real numbers has a real norm, the floor keeps the divisor positive, so `X` and `Y` are real. Dividing
  by `2²⁴` and multiplying by `2⁻²⁴` agree on every extended real.

  The three programs' frames are the generated ones (for the host reference, its generated run with the result
  dropped); nothing was rewritten when the kernel was idealised, so that claim is trivial.
-/
import proofs.«173129_j90417651516231_2_alg».proof.Defs
import proofs.«173129_j90417651516231_2_alg».proof.Proof.Gen.Kernel
import proofs.«173129_j90417651516231_2_alg».proof.Proof.Gen.Kernel.Skeleton
import proofs.«173129_j90417651516231_2_alg».proof.Proof.Gen.Kernel.Launch
import proofs.«173129_j90417651516231_2_alg».proof.Proof.Gen.Kernel.Points
import proofs.«173129_j90417651516231_2_alg».proof.Proof.Gen.Kernel.Frame
import proofs.«173129_j90417651516231_2_alg».proof.Proof.Gen.KernelIdeal
import proofs.«173129_j90417651516231_2_alg».proof.Proof.Gen.KernelIdeal.Skeleton
import proofs.«173129_j90417651516231_2_alg».proof.Proof.Gen.KernelIdeal.Launch
import proofs.«173129_j90417651516231_2_alg».proof.Proof.Gen.KernelIdeal.Points
import proofs.«173129_j90417651516231_2_alg».proof.Proof.Gen.KernelIdeal.Frame
import proofs.«173129_j90417651516231_2_alg».proof.Proof.Gen.ReferenceIdeal
import proofs.«173129_j90417651516231_2_alg».proof.Proof.Gen.Pre_finite_inputs
import proofs.«173129_j90417651516231_2_alg».proof.Proof.Gen.ReferenceIdeal.Run
import proofs.«173129_j90417651516231_2_alg».proof.Proof.Gen.ReferenceIdeal.Read
import proofs.«173129_j90417651516231_2_alg».proof.Proof.KernelValue
import proofs.«173129_j90417651516231_2_alg».proof.Proof.ReferenceValue
import proofs.«173129_j90417651516231_2_alg».proof.Proof.Normalised
import proofs.«173129_j90417651516231_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The tiled program ends at `kernelMean X Y`, the other at `referenceMean X Y` of the same normalised matrices (the
    arguments agree), and the two are equal because the finite inputs make `X` and `Y` real. -/
theorem algebraic : Cert.algebraic_KernelIdeal_ReferenceIdeal := by
  intro m ρ m' ρ' hpre hagree
  refine ⟨fun c _ => Cert.CosineMean.kernelMean (Cert.KernelIdeal.Bands.X m c) (Cert.KernelIdeal.Bands.Y m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.FiniteInputs.real_of_pre _ _ (hpre c)
  funext i
  refine (Cert.ReferenceValue.result_eq _ _ i).trans ?_
  rw [(hagree c).1, (hagree c).2]
  exact (Cert.CosineMean.kernelMean_eq_referenceMean _ _ (Cert.Normalised.isReal_v6 _ hx) (Cert.Normalised.isReal_v11 _ hy)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
